-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x20 : Shape := ⟨2, ![100000, 20]⟩
abbrev S200000x64 : Shape := ⟨2, ![200000, 64]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg11 : FVec F S64 .f32) (main_arg12 : FVec F S64x64 .f32) (main_arg13 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_v33

def fn {F : FTy → Type} [FloatOps F] (main_arg0 : IVec S100000 32) (main_arg1 : IVec S100000 32) (main_arg2 : IVec S100000x20 32) (main_arg3 : IVec S100000x20 32) (main_arg4 : FVec F S200000x64 .f32) (main_arg5 : FVec F S200000x64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S200000x64 .f32 := Host.absf main_arg4
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg5
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_v13 main_v16
-- ==== Kernel.lean ====
abbrev S100000 : Shape := ⟨1, ![100000]⟩
abbrev S100000x20 : Shape := ⟨2, ![100000, 20]⟩
abbrev S200000x64 : Shape := ⟨2, ![200000, 64]⟩
abbrev S64x64 : Shape := ⟨2, ![64, 64]⟩
abbrev S64 : Shape := ⟨1, ![64]⟩
abbrev S_ : Shape := ⟨0, ![]⟩
abbrev S100000x1 : Shape := ⟨2, ![100000, 1]⟩
abbrev S100000x64 : Shape := ⟨2, ![100000, 64]⟩
abbrev S100000x20x1 : Shape := ⟨3, ![100000, 20, 1]⟩
abbrev S100000x20x64 : Shape := ⟨3, ![100000, 20, 64]⟩
abbrev S5000x64 : Shape := ⟨2, ![5000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 70
  | .vmem => 20
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S100000x20, .i32⟩
  | .hbm, ⟨3, _⟩ => ⟨S100000x20, .i32⟩
  | .hbm, ⟨4, _⟩ => ⟨S200000x64, .f32⟩
  | .hbm, ⟨5, _⟩ => ⟨S200000x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x64, .f32⟩
  | .hbm, ⟨23, _⟩ => ⟨S_, .i32⟩
  | .hbm, ⟨24, _⟩ => ⟨S100000x20, .i32⟩
  | .hbm, ⟨25, _⟩ => ⟨S100000x20, .i1⟩
  | .hbm, ⟨26, _⟩ => ⟨S_, .i32⟩
  | .hbm, ⟨27, _⟩ => ⟨S100000x20, .i32⟩
  | .hbm, ⟨28, _⟩ => ⟨S100000x20, .i32⟩
  | .hbm, ⟨29, _⟩ => ⟨S100000x20, .i32⟩
  | .hbm, ⟨30, _⟩ => ⟨S100000x20x1, .i32⟩
  | .hbm, ⟨31, _⟩ => ⟨S100000x20x64, .f32⟩
  | .hbm, ⟨32, _⟩ => ⟨S_, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .bf16⟩
  | .hbm, ⟨38, _⟩ => ⟨S100000x64, .bf16⟩
  | .hbm, ⟨39, _⟩ => ⟨S64x64, .f32⟩
  | .hbm, ⟨40, _⟩ => ⟨S64x64, .f32⟩
  | .hbm, ⟨41, _⟩ => ⟨S100000x64, .f32⟩
  | .hbm, ⟨42, _⟩ => ⟨S_, .i32⟩
  | .hbm, ⟨43, _⟩ => ⟨S100000, .i32⟩
  | .hbm, ⟨44, _⟩ => ⟨S100000, .i1⟩
  | .hbm, ⟨45, _⟩ => ⟨S_, .i32⟩
  | .hbm, ⟨46, _⟩ => ⟨S100000, .i32⟩
  | .hbm, ⟨47, _⟩ => ⟨S100000, .i32⟩
  | .hbm, ⟨48, _⟩ => ⟨S100000, .i32⟩
  | .hbm, ⟨49, _⟩ => ⟨S100000x1, .i32⟩
  | .hbm, ⟨50, _⟩ => ⟨S100000x64, .f32⟩
  | .hbm, ⟨51, _⟩ => ⟨S_, .i32⟩
  | .hbm, ⟨52, _⟩ => ⟨S100000x20, .i32⟩
  | .hbm, ⟨53, _⟩ => ⟨S100000x20, .i1⟩
  | .hbm, ⟨54, _⟩ => ⟨S_, .i32⟩
  | .hbm, ⟨55, _⟩ => ⟨S100000x20, .i32⟩
  | .hbm, ⟨56, _⟩ => ⟨S100000x20, .i32⟩
  | .hbm, ⟨57, _⟩ => ⟨S100000x20, .i32⟩
  | .hbm, ⟨58, _⟩ => ⟨S100000x20x1, .i32⟩
  | .hbm, ⟨59, _⟩ => ⟨S100000x20x64, .f32⟩
  | .hbm, ⟨60, _⟩ => ⟨S_, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .bf16⟩
  | .hbm, ⟨66, _⟩ => ⟨S100000x64, .bf16⟩
  | .hbm, ⟨67, _⟩ => ⟨S64x64, .f32⟩
  | .hbm, ⟨68, _⟩ => ⟨S64x64, .f32⟩
  | .hbm, ⟨69, _⟩ => ⟨S100000x64, .f32⟩
  | .local _ .vmem, ⟨0, _⟩ => ⟨S5000x64, .bf16⟩
  | .local _ .vmem, ⟨1, _⟩ => ⟨S5000x64, .bf16⟩
  | .local _ .vmem, ⟨2, _⟩ => ⟨S5000x64, .bf16⟩
  | .local _ .vmem, ⟨3, _⟩ => ⟨S5000x64, .bf16⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .bf16⟩
  | .local _ .vmem, ⟨11, _⟩ => ⟨S5000x64, .bf16⟩
  | .local _ .vmem, ⟨12, _⟩ => ⟨S5000x64, .bf16⟩
  | .local _ .vmem, ⟨13, _⟩ => ⟨S5000x64, .bf16⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x20 : S_.BroadcastsInDim S100000x20 (![] : Fin 0 → Fin S100000x20.rank)
  bcast_S100000x20_S100000x20x1_0_1 : S100000x20.BroadcastsInDim S100000x20x1 (![0, 1] : Fin 2 → Fin S100000x20x1.rank)
  reducesTo_S100000x20x64_S100000x64_d1 : S100000x20x64.ReducesTo [1] S100000x64
  h_S_ : 0 < S_.numel
  bcast_S_S100000x64 : S_.BroadcastsInDim S100000x64 (![] : Fin 0 → Fin S100000x64.rank)
  bitsLt_bf16_f32 : FTy.bits .bf16 < FTy.bits .f32
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S200000x64_S100000x1_S100000x64_1_0_n_n_0_1_164_wf : GatherDims.WF S200000x64 S100000x1 S100000x64 [1] [0] [] [0] [] 1 ![1, 64]
  gather_S200000x64_S100000x20x1_S100000x20x64_2_0_n_n_0_2_164_wf : GatherDims.WF S200000x64 S100000x20x1 S100000x20x64 [2] [0] [] [0] [] 2 ![1, 64]
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .bf16 = 32 ∨ (Rect.block (s := S100000x64) S5000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .bf16 = 32 ∨ (Rect.block (s := S100000x64) S5000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S200000x64_S100000x1_S100000x64_1_0_n_n_0_1_164 : GatherDims S200000x64 S100000x1 S100000x64 where
  offsetDims := [1]
  collapsedSliceDims := [0]
  operandBatchingDims := []
  startIndicesBatchingDims := []
  startIndexMap := [0]
  indexVectorDim := 1
  sliceSizes := ![1, 64]
  wf := gather_S200000x64_S100000x1_S100000x64_1_0_n_n_0_1_164_wf
def gather_S200000x64_S100000x20x1_S100000x20x64_2_0_n_n_0_2_164 : GatherDims S200000x64 S100000x20x1 S100000x20x64 where
  offsetDims := [2]
  collapsedSliceDims := [0]
  operandBatchingDims := []
  startIndicesBatchingDims := []
  startIndexMap := [0]
  indexVectorDim := 2
  sliceSizes := ![1, 64]
  wf := gather_S200000x64_S100000x20x1_S100000x20x64_2_0_n_n_0_2_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v17) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000 : Shape := ⟨1, ![100000]⟩
abbrev S100000x20 : Shape := ⟨2, ![100000, 20]⟩
abbrev S200000x64 : Shape := ⟨2, ![200000, 64]⟩
abbrev S64x64 : Shape := ⟨2, ![64, 64]⟩
abbrev S64 : Shape := ⟨1, ![64]⟩
abbrev S_ : Shape := ⟨0, ![]⟩
abbrev S100000x1 : Shape := ⟨2, ![100000, 1]⟩
abbrev S100000x64 : Shape := ⟨2, ![100000, 64]⟩
abbrev S100000x20x1 : Shape := ⟨3, ![100000, 20, 1]⟩
abbrev S100000x20x64 : Shape := ⟨3, ![100000, 20, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S100000x20, .i32⟩
  | .hbm, ⟨3, _⟩ => ⟨S100000x20, .i32⟩
  | .hbm, ⟨4, _⟩ => ⟨S200000x64, .f32⟩
  | .hbm, ⟨5, _⟩ => ⟨S200000x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x64, .f32⟩
  | .hbm, ⟨23, _⟩ => ⟨S_, .i32⟩
  | .hbm, ⟨24, _⟩ => ⟨S100000x20, .i32⟩
  | .hbm, ⟨25, _⟩ => ⟨S100000x20, .i1⟩
  | .hbm, ⟨26, _⟩ => ⟨S_, .i32⟩
  | .hbm, ⟨27, _⟩ => ⟨S100000x20, .i32⟩
  | .hbm, ⟨28, _⟩ => ⟨S100000x20, .i32⟩
  | .hbm, ⟨29, _⟩ => ⟨S100000x20, .i32⟩
  | .hbm, ⟨30, _⟩ => ⟨S100000x20x1, .i32⟩
  | .hbm, ⟨31, _⟩ => ⟨S100000x20x64, .f32⟩
  | .hbm, ⟨32, _⟩ => ⟨S_, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S100000x64, .f32⟩
  | .hbm, ⟨70, _⟩ => ⟨S_, .i32⟩
  | .hbm, ⟨71, _⟩ => ⟨S100000x20, .i32⟩
  | .hbm, ⟨72, _⟩ => ⟨S100000x20, .i1⟩
  | .hbm, ⟨73, _⟩ => ⟨S_, .i32⟩
  | .hbm, ⟨74, _⟩ => ⟨S100000x20, .i32⟩
  | .hbm, ⟨75, _⟩ => ⟨S100000x20, .i32⟩
  | .hbm, ⟨76, _⟩ => ⟨S100000x20, .i32⟩
  | .hbm, ⟨77, _⟩ => ⟨S100000x20x1, .i32⟩
  | .hbm, ⟨78, _⟩ => ⟨S100000x20x64, .f32⟩
  | .hbm, ⟨79, _⟩ => ⟨S_, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S64x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S64x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S100000x1, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S100000x64, .f32⟩
  | .hbm, ⟨107, _⟩ => ⟨S100000x64, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_7 : Ref sig .tc := ⟨.hbm, 70, rfl⟩
abbrev main_v41 : Ref sig .tc := ⟨.hbm, 71, rfl⟩
abbrev main_v42 : Ref sig .tc := ⟨.hbm, 72, rfl⟩
abbrev main_c_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call2_cst : Ref sig .tc := ⟨.hbm, 95, rfl⟩
abbrev main_call2_v0 : Ref sig .tc := ⟨.hbm, 96, rfl⟩
abbrev main_v62 : Ref sig .tc := ⟨.hbm, 97, rfl⟩
abbrev main_call3_v0 : Ref sig .tc := ⟨.hbm, 98, rfl⟩
abbrev main_call3_cst : Ref sig .tc := ⟨.hbm, 99, rfl⟩
abbrev main_call3_v1 : Ref sig .tc := ⟨.hbm, 100, rfl⟩
abbrev main_call3_v2 : Ref sig .tc := ⟨.hbm, 101, rfl⟩
abbrev main_v63 : Ref sig .tc := ⟨.hbm, 102, rfl⟩
abbrev main_cst_11 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x20 : S_.BroadcastsInDim S100000x20 (![] : Fin 0 → Fin S100000x20.rank)
  bcast_S100000x20_S100000x20x1_0_1 : S100000x20.BroadcastsInDim S100000x20x1 (![0, 1] : Fin 2 → Fin S100000x20x1.rank)
  reducesTo_S100000x20x64_S100000x64_d1 : S100000x20x64.ReducesTo [1] S100000x64
  h_S_ : 0 < S_.numel
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S200000x64_S100000x1_S100000x64_1_0_n_n_0_1_164_wf : GatherDims.WF S200000x64 S100000x1 S100000x64 [1] [0] [] [0] [] 1 ![1, 64]
  gather_S200000x64_S100000x20x1_S100000x20x64_2_0_n_n_0_2_164_wf : GatherDims.WF S200000x64 S100000x20x1 S100000x20x64 [2] [0] [] [0] [] 2 ![1, 64]
  dot_S100000x64_S64x64_S100000x64_1_0_0_1_n_n_wf : DotDims.WF S100000x64 S64x64 S100000x64 [1] [0] [0] [1] [] []

variable [Facts₀]

def gather_S200000x64_S100000x1_S100000x64_1_0_n_n_0_1_164 : GatherDims S200000x64 S100000x1 S100000x64 where
  offsetDims := [1]
  collapsedSliceDims := [0]
  operandBatchingDims := []
  startIndicesBatchingDims := []
  startIndexMap := [0]
  indexVectorDim := 1
  sliceSizes := ![1, 64]
  wf := gather_S200000x64_S100000x1_S100000x64_1_0_n_n_0_1_164_wf
def gather_S200000x64_S100000x20x1_S100000x20x64_2_0_n_n_0_2_164 : GatherDims S200000x64 S100000x20x1 S100000x20x64 where
  offsetDims := [2]
  collapsedSliceDims := [0]
  operandBatchingDims := []
  startIndicesBatchingDims := []
  startIndexMap := [0]
  indexVectorDim := 2
  sliceSizes := ![1, 64]
  wf := gather_S200000x64_S100000x20x1_S100000x20x64_2_0_n_n_0_2_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run, with every buffer's final contents kept.

  @main is four stretches: host operations, the first pallas_call, host operations, the second pallas_call. The
  buffer contents at each boundary are a fold from the launch memory (`W0` … `W4` of the generated frame module);
  the run ends with every unscoped buffer of every core at the last boundary's contents `W4`. The frame claim needs of
  this only the argument arrays; the value claim needs the two result arrays, so the statement here keeps every
  buffer, and the results are then read off the fold.
-/
import proofs.«137083_j85813446574086_2_alg».proof.Proof.Gen.KernelIdeal.Frame

set_option maxRecDepth 16384

noncomputable section

namespace Cert.KernelIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer
    of every core holds the last boundary's contents. -/
theorem run_ends : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Ends

end
-- ==== Proof.SageRow.lean ====
/-
  One layer of a GraphSAGE network with the mean aggregator, read on the extended reals.

  For one node the layer takes the node's own embedding `s` and the mean `n` of its neighbours' embeddings
  (both vectors of 64 numbers), two 64 × 64 weight matrices `ws`, `wn` (given already transposed: `ws k j`
  multiplies input coordinate `k` into output coordinate `j`) and two bias vectors `bs`, `bn`, and returns

      h j   = max (((Σ_k s k · ws k j) + bs j) + (Σ_k n k · wn k j) + bn j) 0          (the rectified sum)
      out q = h q / max (√(Σ_j h j · h j)) ε                                            (the row scaled to unit length)

  with the additions associated exactly as written, `0` and `ε` the values of the two float words the
  programs carry, and `/`, `√` the extended reals' division and square root. `layer` applies this to every
  row of a [100000, 64] array of embeddings.
-/
import Idealize.ShloMosaic.PureOps.Ideal
import Idealize.ShloMosaic.Lib.ValueIdx

noncomputable section

namespace Cert.Sage

open Idealize.ShloMosaic Idealize.ShloMosaic.ValueIdx

/-- The rectified sum of the two linear maps and the two biases, at output coordinate `j`. -/
def hid (s n : Fin 64 → EReal) (ws wn : Fin 64 → Fin 64 → EReal) (bs bn : Fin 64 → EReal) (j : Fin 64) : EReal :=
  max ((((∑ k : Fin 64, s k * ws k j) + bs j) + ∑ k : Fin 64, n k * wn k j) + bn j) (Ideal.ofBits .f32 0x00000000#32)

/-- The rectified row divided by its Euclidean length, the length clamped below by `ε`. -/
def row (s n : Fin 64 → EReal) (ws wn : Fin 64 → Fin 64 → EReal) (bs bn : Fin 64 → EReal) (q : Fin 64) : EReal :=
  Ideal.div (hid s n ws wn bs bn q)
    (max (Ideal.sqrt (∑ j : Fin 64, hid s n ws wn bs bn j * hid s n ws wn bs bn j)) (Ideal.ofBits .f32 0x2B8CBCCC#32))

/-- The layer at row `p`, column `q` of [100000, 64] arrays of own and aggregated embeddings. -/
def layerAt (selfE neigh : (⟨2, ![100000, 64]⟩ : Shape).Idx → EReal) (wsT wnT : (⟨2, ![64, 64]⟩ : Shape).Idx → EReal)
    (bs bn : (⟨1, ![64]⟩ : Shape).Idx → EReal) (p : Fin 100000) (q : Fin 64) : EReal :=
  row (fun k => selfE (ix2 p k)) (fun k => neigh (ix2 p k)) (fun k j => wsT (ix2 k j)) (fun k j => wnT (ix2 k j))
    (fun j => bs (ix1 j)) (fun j => bn (ix1 j)) q

/-- The layer as one function of the arrays: every row scaled independently. -/
def layer (selfE neigh : (⟨2, ![100000, 64]⟩ : Shape).Idx → EReal) (wsT wnT : (⟨2, ![64, 64]⟩ : Shape).Idx → EReal)
    (bs bn : (⟨1, ![64]⟩ : Shape).Idx → EReal) : (⟨2, ![100000, 64]⟩ : Shape).Idx → EReal :=
  fun i => layerAt selfE neigh wsT wnT bs bn (i 0) (i 1)

theorem layer_ix2 (selfE neigh : (⟨2, ![100000, 64]⟩ : Shape).Idx → EReal) (wsT wnT : (⟨2, ![64, 64]⟩ : Shape).Idx → EReal)
    (bs bn : (⟨1, ![64]⟩ : Shape).Idx → EReal) (p : Fin 100000) (q : Fin 64) :
    layer selfE neigh wsT wnT bs bn (ix2 p q) = layerAt selfE neigh wsT wnT bs bn p q := rfl

end Cert.Sage

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.SageBlock.lean ====
/-
  The kernel body's arithmetic on one block of 5000 rows, read row by row: the value it stores at row `r`,
  column `q` is `Sage.row` of row `r` of the two embedding blocks, the two weight matrices and the two biases.

  The body computes, on whole blocks, the two matrix products into zero accumulators, adds the biases (each
  laid out as one row and repeated down the block), rectifies, then for every row sums the squares along the
  row, takes the square root, clamps it below by `ε`, repeats that number along the row and divides. Each of
  these steps is read here at an index given by its row and column.
-/
import proofs.«137083_j85813446574086_2_alg».proof.Proof.Gen.KernelIdeal.Skeleton
import proofs.«137083_j85813446574086_2_alg».proof.Proof.SageRow
import proofs.«137083_j85813446574086_2_alg».proof.Proof.LibColumn
import Idealize.ShloMosaic.Lib.ValueLayout
import Idealize.ShloMosaic.PureOps.Ideal.Laws

noncomputable section

namespace Cert.Sage.Block

open Idealize.ShloMosaic Idealize.ShloMosaic.ValueIdx Cert.KernelIdeal Cert.KernelIdeal.Gen

/-! ## The row normalisation -/

/-- Every row of a block divided by its clamped Euclidean length, as the body spells it. -/
def unitRows (h : FVec Ideal S5000x64 .f32) : FVec Ideal S5000x64 .f32 :=
  divf h (broadcastTo S5000x64
    (maximumf (sqrt (shapeCast S5000x1 (multiReduction .add [1] S5000 (mulf h h) 0x00000000#32 reduces_S5000x64_S5000 (.inl rfl) rfl) shapeCasts_S5000_S5000x1))
      (broadcast S5000x1 (Scalar.ofBits .f32 0x2B8CBCCC#32)))
    broadcasts_S5000x1_S5000x64)

/-- The sum of a block's row `r` along its 64 columns. -/
theorem rowSum_apply (v : FVec Ideal S5000x64 .f32) (hr : S5000x64.Reduces [1] S5000) (hφ : FKind.Formats .f32)
    (hacc : (0x00000000#32 : BitVec (FTy.bits .f32)) = FKind.add.neutral .f32 hφ) (r : Fin 5000) :
    multiReduction .add [1] S5000 v 0x00000000#32 hr hφ hacc (ix1 r) = ∑ k : Fin 64, v (ix2 r k) := by
  refine (Ideal.multiReduction_add_single v 0x00000000#32 hr hφ hacc (ix1 r)).trans ?_
  show ∑ k : Fin 64, v (hr.lift (ix1 r) k) = _
  refine Finset.sum_congr rfl fun k _ => congrArg v ?_
  funext a
  apply Fin.ext
  match a with
  | ⟨0, _⟩ => rfl
  | ⟨1, _⟩ => rfl

theorem unitRows_apply (h : FVec Ideal S5000x64 .f32) (r : Fin 5000) (q : Fin 64) :
    unitRows h (ix2 r q)
      = Ideal.div (h (ix2 r q)) (max (Ideal.sqrt (∑ k : Fin 64, h (ix2 r k) * h (ix2 r k))) (Ideal.ofBits .f32 0x2B8CBCCC#32)) := by
  unfold unitRows
  refine congrArg (Ideal.div (h (ix2 r q))) ?_
  refine (broadcastTo_a1_ab_apply _ broadcasts_S5000x1_S5000x64 r q).trans ?_
  refine congrArg (fun z => max (Ideal.sqrt z) (Ideal.ofBits .f32 0x2B8CBCCC#32)) ?_
  refine (shapeCast_a_a1_apply _ shapeCasts_S5000_S5000x1 r (0 : Fin 1)).trans ?_
  exact rowSum_apply (mulf h h) reduces_S5000x64_S5000 (.inl rfl) rfl r

/-! ## The two matrix products and the biases -/

/-- The matrix product's operand indices, coordinate by coordinate: at output entry `i` and contraction index `q`
    the left operand is read at row `i 0`, column `q`, the right operand at row `q`, column `i 1`. -/
theorem lhs_row (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times a 64 × 64 matrix, accumulated from zero: entry `(r, j)` is the sum over `k` of
    the block's `(r, k)` times the matrix's `(k, j)`. -/
theorem matmul_rows {φ₁ φ₂ : FTy} (lhs : FVec Ideal S5000x64 φ₁) (rhs : FVec Ideal S64x64 φ₂) (r : Fin 5000) (j : Fin 64) :
    matmul dot_S5000x64_S64x64_S5000x64_1_0_0_1_n_n none lhs rhs (constant S5000x64 .f32 0x00000000#32) (ix2 r j)
      = ∑ k : Fin 64, lhs (ix2 r k) * rhs (ix2 k j) := by
  refine (Ideal.matmul_constant_zero_apply dot_S5000x64_S64x64_S5000x64_1_0_0_1_n_n none lhs rhs (ix2 r j)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j :=
    funext fun a => Fin.ext (by
      match a with
      | ⟨0, _⟩ => exact (rhs_row _ _).trans hk
      | ⟨1, _⟩ => exact rhs_col _ _)
  rw [el, er]

/-- A vector of 64 numbers laid out as one row and repeated down a block: entry `(r, j)` is the vector's `j`. -/
theorem biasRows_apply (b : Vec Ideal S64 .f32) (r : Fin 5000) (j : Fin 64) :
    broadcastTo S5000x64 (shapeCast S1x64 b shapeCasts_S64_S1x64) broadcasts_S1x64_S5000x64 (ix2 r j) = b (ix1 j) :=
  (broadcastTo_1b_ab_apply _ broadcasts_S1x64_S5000x64 r j).trans (shapeCast_a_1a_apply b shapeCasts_S64_S1x64 (0 : Fin 1) j)

/-- The rectified sum on a block, as the body spells it. -/
def hidVec (x0 x1 : Vec Ideal S5000x64 .bf16) (x2 x4 : Vec Ideal S64x64 .f32) (x3 x5 : Vec Ideal S64 .f32) : FVec Ideal S5000x64 .f32 :=
  maximumf
    (addf (addf (addf
        (matmul dot_S5000x64_S64x64_S5000x64_1_0_0_1_n_n none (shapeCast S5000x64 x0 shapeCasts_S5000x64_S5000x64 : FVec Ideal S5000x64 .bf16)
          (truncf .bf16 (shapeCast S64x64 x2 shapeCasts_S64x64_S64x64 : FVec Ideal S64x64 .f32) bitsLt_bf16_f32 : FVec Ideal S64x64 .bf16)
          (constant S5000x64 .f32 0x00000000#32))
        (broadcastTo S5000x64 (shapeCast S1x64 x3 shapeCasts_S64_S1x64 : FVec Ideal S1x64 .f32) broadcasts_S1x64_S5000x64))
      (matmul dot_S5000x64_S64x64_S5000x64_1_0_0_1_n_n none (shapeCast S5000x64 x1 shapeCasts_S5000x64_S5000x64 : FVec Ideal S5000x64 .bf16)
          (truncf .bf16 (shapeCast S64x64 x4 shapeCasts_S64x64_S64x64 : FVec Ideal S64x64 .f32) bitsLt_bf16_f32 : FVec Ideal S64x64 .bf16)
          (constant S5000x64 .f32 0x00000000#32)))
      (broadcastTo S5000x64 (shapeCast S1x64 x5 shapeCasts_S64_S1x64 : FVec Ideal S1x64 .f32) broadcasts_S1x64_S5000x64))
    (broadcast S5000x64 (Scalar.ofBits .f32 0x00000000#32))

theorem hidVec_apply (x0 x1 : Vec Ideal S5000x64 .bf16) (x2 x4 : Vec Ideal S64x64 .f32) (x3 x5 : Vec Ideal S64 .f32)
    (r : Fin 5000) (j : Fin 64) :
    hidVec x0 x1 x2 x4 x3 x5 (ix2 r j)
      = Sage.hid (fun k => x0 (ix2 r k)) (fun k => x1 (ix2 r k)) (fun k j => x2 (ix2 k j)) (fun k j => x4 (ix2 k j))
          (fun j => x3 (ix1 j)) (fun j => x5 (ix1 j)) j := by
  unfold hidVec Sage.hid
  rw [maximumf_apply, addf_apply, addf_apply, addf_apply, matmul_rows, matmul_rows, biasRows_apply, biasRows_apply,
    shapeCast_self, shapeCast_self, shapeCast_self, shapeCast_self]
  rfl

/-- The value the body stores is the row normalisation of the rectified sum. -/
theorem pay_eq (x0 x1 : Vec Ideal S5000x64 .bf16) (x2 x4 : Vec Ideal S64x64 .f32) (x3 x5 : Vec Ideal S64 .f32) :
    k0_pay1 x0 x1 x2 x4 x3 x5 = unitRows (hidVec x0 x1 x2 x4 x3 x5) := rfl

/-- The same for the second call's body: its text is the first's. -/
theorem pay_eq' (x0 x1 : Vec Ideal S5000x64 .bf16) (x2 x4 : Vec Ideal S64x64 .f32) (x3 x5 : Vec Ideal S64 .f32) :
    k1_pay1 x0 x1 x2 x4 x3 x5 = unitRows (hidVec x0 x1 x2 x4 x3 x5) := rfl

/-- THE BLOCK, ROW BY ROW: what the body stores at row `r`, column `q` is `Sage.row` of the blocks' row `r`. -/
theorem block_apply (x0 x1 : Vec Ideal S5000x64 .bf16) (x2 x4 : Vec Ideal S64x64 .f32) (x3 x5 : Vec Ideal S64 .f32)
    (r : Fin 5000) (q : Fin 64) :
    unitRows (hidVec x0 x1 x2 x4 x3 x5) (ix2 r q)
      = Sage.row (fun k => x0 (ix2 r k)) (fun k => x1 (ix2 r k)) (fun k j => x2 (ix2 k j)) (fun k j => x4 (ix2 k j))
          (fun j => x3 (ix1 j)) (fun j => x5 (ix1 j)) q := by
  rw [unitRows_apply]
  unfold Sage.row
  simp only [hidVec_apply]

end Cert.Sage.Block

end
-- ==== Proof.KernelArrays.lean ====
/-
  From blocks to arrays: what each pallas_call leaves in its result array.

  Both calls run the same body over a grid of 20 points. At point `t` the two embedding windows and the output
  window hold rows `5000·t … 5000·t + 4999` of their [100000, 64] arrays; the weight and bias windows hold their
  whole arrays at every point. The body scales each row independently, so what point `t` writes back is block `t`
  of `Sage.layer` of the arrays as the call finds them, and since the 20 output blocks tile the result array, the
  array ends holding `Sage.layer` of those arrays. Stated for any contents `V` at the call's entry.
-/
import proofs.«137083_j85813446574086_2_alg».proof.Proof.Gen.KernelIdeal.Frame
import proofs.«137083_j85813446574086_2_alg».proof.Proof.SageBlock

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first call -/

/-- The printed index maps over the grid: the embedding windows and the output window sit at block row `t`,
    the weight and bias windows at block zero. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `y 0` of the own-embedding block at point `t` is the array's row under the output block's row `y 0`. -/
theorem rd0_0 (c : Dev nD) (t : Fin cfg0.N) (y : ((cfg0.win 6).xblock (grid0.coords t)).Idx) (k : Fin 64) :
    iblk0 V c 0 t (ix2 (y 0) k) = V c main_v17 (ix2 ((((cfg0.win 6).blk t).view.emb y) 0) k) := by
  obtain ⟨e00, e01, e10, e11, e20, e21, e30, e40, e41, e50, e60, e61⟩ := idx_facts0 t
  show V c main_v17 (((cfg0.win 0).blk t).view.emb (ix2 (y 0) k)) = _
  refine congrArg (V c main_v17) (funext fun a => Fin.ext ?_)
  match a with
  | ⟨0, _⟩ => show win0_0.index t (0 : Fin 2) * 5000 + 1 * (y 0).val = win0_6.index t (0 : Fin 2) * 5000 + 1 * (y 0).val; omega
  | ⟨1, _⟩ => show win0_0.index t (1 : Fin 2) * 64 + 1 * k.val = k.val; omega

/-- The same for the aggregated-embedding block. -/
theorem rd0_1 (c : Dev nD) (t : Fin cfg0.N) (y : ((cfg0.win 6).xblock (grid0.coords t)).Idx) (k : Fin 64) :
    iblk0 V c 1 t (ix2 (y 0) k) = V c main_v18 (ix2 ((((cfg0.win 6).blk t).view.emb y) 0) k) := by
  obtain ⟨e00, e01, e10, e11, e20, e21, e30, e40, e41, e50, e60, e61⟩ := idx_facts0 t
  show V c main_v18 (((cfg0.win 1).blk t).view.emb (ix2 (y 0) k)) = _
  refine congrArg (V c main_v18) (funext fun a => Fin.ext ?_)
  match a with
  | ⟨0, _⟩ => show win0_1.index t (0 : Fin 2) * 5000 + 1 * (y 0).val = win0_6.index t (0 : Fin 2) * 5000 + 1 * (y 0).val; omega
  | ⟨1, _⟩ => show win0_1.index t (1 : Fin 2) * 64 + 1 * k.val = k.val; omega

/-- The weight and bias windows hold their whole arrays at every point. -/
theorem rd0_2 (c : Dev nD) (t : Fin cfg0.N) (k j : Fin 64) : iblk0 V c 2 t (ix2 k j) = V c main_v19 (ix2 k j) := by
  obtain ⟨e00, e01, e10, e11, e20, e21, e30, e40, e41, e50, e60, e61⟩ := idx_facts0 t
  show V c main_v19 (((cfg0.win 2).blk t).view.emb (ix2 k j)) = _
  refine congrArg (V c main_v19) (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega
theorem rd0_4 (c : Dev nD) (t : Fin cfg0.N) (k j : Fin 64) : iblk0 V c 4 t (ix2 k j) = V c main_v20 (ix2 k j) := by
  obtain ⟨e00, e01, e10, e11, e20, e21, e30, e40, e41, e50, e60, e61⟩ := idx_facts0 t
  show V c main_v20 (((cfg0.win 4).blk t).view.emb (ix2 k j)) = _
  refine congrArg (V c main_v20) (funext fun a => Fin.ext ?_)
  match a with
  | ⟨0, _⟩ => show win0_4.index t (0 : Fin 2) * 64 + 1 * k.val = k.val; omega
  | ⟨1, _⟩ => show win0_4.index t (1 : Fin 2) * 64 + 1 * j.val = j.val; omega
theorem rd0_3 (c : Dev nD) (t : Fin cfg0.N) (j : Fin 64) : iblk0 V c 3 t (ix1 j) = V c main_arg7 (ix1 j) := by
  obtain ⟨e00, e01, e10, e11, e20, e21, e30, e40, e41, e50, e60, e61⟩ := idx_facts0 t
  show V c main_arg7 (((cfg0.win 3).blk t).view.emb (ix1 j)) = _
  refine congrArg (V c main_arg7) (funext fun a => Fin.ext ?_)
  match a with
  | ⟨0, _⟩ => show win0_3.index t (0 : Fin 1) * 64 + 1 * j.val = j.val; omega
theorem rd0_5 (c : Dev nD) (t : Fin cfg0.N) (j : Fin 64) : iblk0 V c 5 t (ix1 j) = V c main_arg9 (ix1 j) := by
  obtain ⟨e00, e01, e10, e11, e20, e21, e30, e40, e41, e50, e60, e61⟩ := idx_facts0 t
  show V c main_arg9 (((cfg0.win 5).blk t).view.emb (ix1 j)) = _
  refine congrArg (V c main_arg9) (funext fun a => Fin.ext ?_)
  match a with
  | ⟨0, _⟩ => show win0_5.index t (0 : Fin 1) * 64 + 1 * j.val = j.val; omega

/-- WHAT POINT `t` OF THE FIRST CALL WRITES BACK is block `t` of the layer of the arrays as the call finds them. -/
theorem flushed0 (c : Dev nD) (t : Fin cfg0.N) :
    (dat0 V c).flushed 6 t = ((cfg0.win 6).blk t).view.read (Elt Ideal)
      (Sage.layer (V c main_v17) (V c main_v18) (V c main_v19) (V c main_v20) (V c main_arg7) (V c main_arg9)) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S64x64) hz2, View.ld_unit_zero (S := S64) hz1]
  rw [Block.pay_eq]
  obtain ⟨e00, e01, e10, e11, e20, e21, e30, e40, e41, e50, e60, e61⟩ := idx_facts0 t
  funext y
  show Block.unitRows (Block.hidVec (iblk0 V c 0 t) (iblk0 V c 1 t) (iblk0 V c 2 t) (iblk0 V c 4 t) (iblk0 V c 3 t) (iblk0 V c 5 t)) y
    = Sage.layerAt (V c main_v17) (V c main_v18) (V c main_v19) (V c main_v20) (V c main_arg7) (V c main_arg9)
        ((((cfg0.win 6).blk t).view.emb y) 0) ((((cfg0.win 6).blk t).view.emb y) 1)
  have hb := Block.block_apply (iblk0 V c 0 t) (iblk0 V c 1 t) (iblk0 V c 2 t) (iblk0 V c 4 t) (iblk0 V c 3 t) (iblk0 V c 5 t) (y 0) (y 1)
  have hyy : (ix2 (y 0) (y 1) : S5000x64.Idx) = y := (eq_ix2 y).symm
  rw [hyy] at hb
  refine hb.trans ?_
  unfold Sage.layerAt
  simp only [rd0_0 V c t y, rd0_1 V c t y, rd0_2 V c t, rd0_3 V c t, rd0_4 V c t, rd0_5 V c t]
  refine congrArg (Sage.row _ _ _ _ _ _) (Fin.ext ?_)
  show (y 1).val = win0_6.index t (1 : Fin 2) * 64 + 1 * (y 1).val
  omega

/-- An index of the result array is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v21).slice (win0_6.rect t)).set ↔ _
  rw [View.set_slice_whole, Rect.mem_set_unit]
  exact Iff.rfl

/-- The 20 output blocks tile the result array: row `r` is in the block of point `r / 5000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_6 _, ?_⟩
  obtain ⟨e00, e01, e10, e11, e20, e21, e30, e40, e41, e50, e60, e61⟩ := idx_facts0 ⟨(i 0).val / 5000, by rw [hN]; omega⟩
  rw [mem_blk0]
  intro a
  match a with
  | ⟨0, _⟩ =>
    show win0_6.index _ (0 : Fin 2) * 5000 ≤ (i 0).val ∧ (i 0).val < win0_6.index _ (0 : Fin 2) * 5000 + 5000
    rw [e60]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e61]; omega

/-- THE FIRST RESULT ARRAY after the call: the layer of the arrays as the call finds them. -/
theorem final0 (c : Dev nD) :
    (dat0 V c).arrAt 6 cfg0.N
      = Sage.layer (V c main_v17) (V c main_v18) (V c main_v19) (V c main_v20) (V c main_arg7) (V c main_arg9) :=
  (dat0 V c).arrAt_eq_of_cover 6 _ (fun t _ => flushed0 V c t) cover0

/-! ## The second call -/

/-- The printed index maps over the grid: the embedding windows and the output window sit at block row `t`,
    the weight and bias windows at block zero. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `y 0` of the own-embedding block at point `t` is the array's row under the output block's row `y 0`. -/
theorem rd1_0 (c : Dev nD) (t : Fin cfg1.N) (y : ((cfg1.win 6).xblock (grid1.coords t)).Idx) (k : Fin 64) :
    iblk1 V c 0 t (ix2 (y 0) k) = V c main_v39 (ix2 ((((cfg1.win 6).blk t).view.emb y) 0) k) := by
  obtain ⟨e00, e01, e10, e11, e20, e21, e30, e40, e41, e50, e60, e61⟩ := idx_facts1 t
  show V c main_v39 (((cfg1.win 0).blk t).view.emb (ix2 (y 0) k)) = _
  refine congrArg (V c main_v39) (funext fun a => Fin.ext ?_)
  match a with
  | ⟨0, _⟩ => show win1_0.index t (0 : Fin 2) * 5000 + 1 * (y 0).val = win1_6.index t (0 : Fin 2) * 5000 + 1 * (y 0).val; omega
  | ⟨1, _⟩ => show win1_0.index t (1 : Fin 2) * 64 + 1 * k.val = k.val; omega

/-- The same for the aggregated-embedding block. -/
theorem rd1_1 (c : Dev nD) (t : Fin cfg1.N) (y : ((cfg1.win 6).xblock (grid1.coords t)).Idx) (k : Fin 64) :
    iblk1 V c 1 t (ix2 (y 0) k) = V c main_v40 (ix2 ((((cfg1.win 6).blk t).view.emb y) 0) k) := by
  obtain ⟨e00, e01, e10, e11, e20, e21, e30, e40, e41, e50, e60, e61⟩ := idx_facts1 t
  show V c main_v40 (((cfg1.win 1).blk t).view.emb (ix2 (y 0) k)) = _
  refine congrArg (V c main_v40) (funext fun a => Fin.ext ?_)
  match a with
  | ⟨0, _⟩ => show win1_1.index t (0 : Fin 2) * 5000 + 1 * (y 0).val = win1_6.index t (0 : Fin 2) * 5000 + 1 * (y 0).val; omega
  | ⟨1, _⟩ => show win1_1.index t (1 : Fin 2) * 64 + 1 * k.val = k.val; omega

/-- The weight and bias windows hold their whole arrays at every point. -/
theorem rd1_2 (c : Dev nD) (t : Fin cfg1.N) (k j : Fin 64) : iblk1 V c 2 t (ix2 k j) = V c main_v41 (ix2 k j) := by
  obtain ⟨e00, e01, e10, e11, e20, e21, e30, e40, e41, e50, e60, e61⟩ := idx_facts1 t
  show V c main_v41 (((cfg1.win 2).blk t).view.emb (ix2 k j)) = _
  refine congrArg (V c main_v41) (funext fun a => Fin.ext ?_)
  match a with
  | ⟨0, _⟩ => show win1_2.index t (0 : Fin 2) * 64 + 1 * k.val = k.val; omega
  | ⟨1, _⟩ => show win1_2.index t (1 : Fin 2) * 64 + 1 * j.val = j.val; omega
theorem rd1_4 (c : Dev nD) (t : Fin cfg1.N) (k j : Fin 64) : iblk1 V c 4 t (ix2 k j) = V c main_v42 (ix2 k j) := by
  obtain ⟨e00, e01, e10, e11, e20, e21, e30, e40, e41, e50, e60, e61⟩ := idx_facts1 t
  show V c main_v42 (((cfg1.win 4).blk t).view.emb (ix2 k j)) = _
  refine congrArg (V c main_v42) (funext fun a => Fin.ext ?_)
  match a with
  | ⟨0, _⟩ => show win1_4.index t (0 : Fin 2) * 64 + 1 * k.val = k.val; omega
  | ⟨1, _⟩ => show win1_4.index t (1 : Fin 2) * 64 + 1 * j.val = j.val; omega
theorem rd1_3 (c : Dev nD) (t : Fin cfg1.N) (j : Fin 64) : iblk1 V c 3 t (ix1 j) = V c main_arg11 (ix1 j) := by
  obtain ⟨e00, e01, e10, e11, e20, e21, e30, e40, e41, e50, e60, e61⟩ := idx_facts1 t
  show V c main_arg11 (((cfg1.win 3).blk t).view.emb (ix1 j)) = _
  refine congrArg (V c main_arg11) (funext fun a => Fin.ext ?_)
  match a with
  | ⟨0, _⟩ => show win1_3.index t (0 : Fin 1) * 64 + 1 * j.val = j.val; omega
theorem rd1_5 (c : Dev nD) (t : Fin cfg1.N) (j : Fin 64) : iblk1 V c 5 t (ix1 j) = V c main_arg13 (ix1 j) := by
  obtain ⟨e00, e01, e10, e11, e20, e21, e30, e40, e41, e50, e60, e61⟩ := idx_facts1 t
  show V c main_arg13 (((cfg1.win 5).blk t).view.emb (ix1 j)) = _
  refine congrArg (V c main_arg13) (funext fun a => Fin.ext ?_)
  match a with
  | ⟨0, _⟩ => show win1_5.index t (0 : Fin 1) * 64 + 1 * j.val = j.val; omega

/-- WHAT POINT `t` OF THE SECOND CALL WRITES BACK is block `t` of the layer of the arrays as the call finds them. -/
theorem flushed1 (c : Dev nD) (t : Fin cfg1.N) :
    (dat1 V c).flushed 6 t = ((cfg1.win 6).blk t).view.read (Elt Ideal)
      (Sage.layer (V c main_v39) (V c main_v40) (V c main_v41) (V c main_v42) (V c main_arg11) (V c main_arg13)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S64x64) hz2, View.ld_unit_zero (S := S64) hz1]
  rw [Block.pay_eq']
  obtain ⟨e00, e01, e10, e11, e20, e21, e30, e40, e41, e50, e60, e61⟩ := idx_facts1 t
  funext y
  show Block.unitRows (Block.hidVec (iblk1 V c 0 t) (iblk1 V c 1 t) (iblk1 V c 2 t) (iblk1 V c 4 t) (iblk1 V c 3 t) (iblk1 V c 5 t)) y
    = Sage.layerAt (V c main_v39) (V c main_v40) (V c main_v41) (V c main_v42) (V c main_arg11) (V c main_arg13)
        ((((cfg1.win 6).blk t).view.emb y) 0) ((((cfg1.win 6).blk t).view.emb y) 1)
  have hb := Block.block_apply (iblk1 V c 0 t) (iblk1 V c 1 t) (iblk1 V c 2 t) (iblk1 V c 4 t) (iblk1 V c 3 t) (iblk1 V c 5 t) (y 0) (y 1)
  have hyy : (ix2 (y 0) (y 1) : S5000x64.Idx) = y := (eq_ix2 y).symm
  rw [hyy] at hb
  refine hb.trans ?_
  unfold Sage.layerAt
  simp only [rd1_0 V c t y, rd1_1 V c t y, rd1_2 V c t, rd1_3 V c t, rd1_4 V c t, rd1_5 V c t]
  refine congrArg (Sage.row _ _ _ _ _ _) (Fin.ext ?_)
  show (y 1).val = win1_6.index t (1 : Fin 2) * 64 + 1 * (y 1).val
  omega

/-- An index of the result array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v43).slice (win1_6.rect t)).set ↔ _
  rw [View.set_slice_whole, Rect.mem_set_unit]
  exact Iff.rfl

/-- The 20 output blocks tile the result array: row `r` is in the block of point `r / 5000`. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_6 _, ?_⟩
  obtain ⟨e00, e01, e10, e11, e20, e21, e30, e40, e41, e50, e60, e61⟩ := idx_facts1 ⟨(i 0).val / 5000, by rw [hN]; omega⟩
  rw [mem_blk1]
  intro a
  match a with
  | ⟨0, _⟩ =>
    show win1_6.index _ (0 : Fin 2) * 5000 ≤ (i 0).val ∧ (i 0).val < win1_6.index _ (0 : Fin 2) * 5000 + 5000
    rw [e60]; show (i 0).val / 5000 * 5000 ≤ (i 0).val ∧ (i 0).val < (i 0).val / 5000 * 5000 + 5000; omega
  | ⟨1, _⟩ =>
    show win1_6.index _ (1 : Fin 2) * 64 ≤ (i 1).val ∧ (i 1).val < win1_6.index _ (1 : Fin 2) * 64 + 64
    rw [e61]; omega

/-- THE SECOND RESULT ARRAY after the call: the layer of the arrays as the call finds them. -/
theorem final1 (c : Dev nD) :
    (dat1 V c).arrAt 6 cfg1.N
      = Sage.layer (V c main_v39) (V c main_v40) (V c main_v41) (V c main_v42) (V c main_arg11) (V c main_arg13) :=
  (dat1 V c).arrAt_eq_of_cover 6 _ (fun t _ => flushed1 V c t) cover1

end Cert.KernelIdeal.Arrays

end
-- ==== Proof.KernelHost.lean ====
/-
  The operands each pallas_call is entered with, as functions of the launch memory.

  Before the first call @main gathers the own embeddings of the user nodes, gathers and averages their neighbours'
  embeddings, rounds both to bf16 (no change on the extended reals) and transposes the two user weight matrices;
  before the second call it does the same on the item side. These are the very host operations the reference
  applies, so each operand buffer is stated as the reference's corresponding stage of the kernel's launch memory:
  the gathers and the mean are never opened. The bias arrays are arguments, untouched. The first call's result is
  not written by the second stretch or the second call.
-/
import proofs.«137083_j85813446574086_2_alg».proof.Proof.Gen.KernelIdeal.Frame
import proofs.«137083_j85813446574086_2_alg».proof.Proof.Gen.ReferenceIdeal.Read
import Idealize.ShloMosaic.Lib.StableHlo.Run

set_option maxRecDepth 16384

noncomputable section

namespace Cert.KernelIdeal.HostRead

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ) (ρ : Dev nD → PrngReg)

/-! ## Entering the first call -/

theorem self_user (c : Dev nD) :
    (V1 m ρ c main_v17 : S100000x64.Idx → EReal) = Cert.ReferenceIdeal.Read.val_main_v6 (F := Ideal) (m ((c : Thread nD τ).loc main_arg0)) (m ((c : Thread nD τ).loc main_arg4)) := by
  dsimp only [V1, W1, hostOps0]; after_results; rfl
set_option maxHeartbeats 1000000 in
theorem neigh_user (c : Dev nD) :
    (V1 m ρ c main_v18 : S100000x64.Idx → EReal) = Cert.ReferenceIdeal.Read.val_main_v16 (F := Ideal) (m ((c : Thread nD τ).loc main_arg2)) (m ((c : Thread nD τ).loc main_arg4)) := by
  dsimp only [V1, W1, hostOps0]; after_results_simp; rfl
theorem wself_user (c : Dev nD) :
    (V1 m ρ c main_v19 : S64x64.Idx → EReal) = Cert.ReferenceIdeal.Read.val_main_v17 (F := Ideal) (m ((c : Thread nD τ).loc main_arg6)) := by
  dsimp only [V1, W1, hostOps0]; after_results; rfl
theorem wneigh_user (c : Dev nD) :
    (V1 m ρ c main_v20 : S64x64.Idx → EReal) = Cert.ReferenceIdeal.Read.val_main_v22 (F := Ideal) (m ((c : Thread nD τ).loc main_arg8)) := by
  dsimp only [V1, W1, hostOps0]; after_results; rfl
theorem bself_user (c : Dev nD) : (V1 m ρ c main_arg7 : S64.Idx → EReal) = m ((c : Thread nD τ).loc main_arg7) := by
  dsimp only [V1, W1, hostOps0]; after_results
theorem bneigh_user (c : Dev nD) : (V1 m ρ c main_arg9 : S64.Idx → EReal) = m ((c : Thread nD τ).loc main_arg9) := by
  dsimp only [V1, W1, hostOps0]; after_results

/-! ## Between the calls: the arguments are as launched -/

theorem kept_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    dsimp only [hostOps0]; after_results)
theorem kept_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    dsimp only [hostOps0]; after_results)
theorem kept_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    dsimp only [hostOps0]; after_results)
theorem kept_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    dsimp only [hostOps0]; after_results)
theorem kept_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    dsimp only [hostOps0]; after_results)
theorem kept_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    dsimp only [hostOps0]; after_results)
theorem kept_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    dsimp only [hostOps0]; after_results)

/-! ## Entering the second call -/

theorem self_item (c : Dev nD) :
    (V3 m ρ c main_v39 : S100000x64.Idx → EReal) = Cert.ReferenceIdeal.Read.val_main_v40 (F := Ideal) (m ((c : Thread nD τ).loc main_arg1)) (m ((c : Thread nD τ).loc main_arg5)) := by
  dsimp only [V3, W3, hostOps1]; after_results; rw [kept_arg1, kept_arg5]; rfl
set_option maxHeartbeats 1000000 in
theorem neigh_item (c : Dev nD) :
    (V3 m ρ c main_v40 : S100000x64.Idx → EReal) = Cert.ReferenceIdeal.Read.val_main_v50 (F := Ideal) (m ((c : Thread nD τ).loc main_arg3)) (m ((c : Thread nD τ).loc main_arg5)) := by
  dsimp only [V3, W3, hostOps1]; after_results_simp; rw [kept_arg3, kept_arg5]; rfl
theorem wself_item (c : Dev nD) :
    (V3 m ρ c main_v41 : S64x64.Idx → EReal) = Cert.ReferenceIdeal.Read.val_main_v51 (F := Ideal) (m ((c : Thread nD τ).loc main_arg10)) := by
  dsimp only [V3, W3, hostOps1]; after_results; rw [kept_arg10]; rfl
theorem wneigh_item (c : Dev nD) :
    (V3 m ρ c main_v42 : S64x64.Idx → EReal) = Cert.ReferenceIdeal.Read.val_main_v56 (F := Ideal) (m ((c : Thread nD τ).loc main_arg12)) := by
  dsimp only [V3, W3, hostOps1]; after_results; rw [kept_arg12]; rfl
theorem bself_item (c : Dev nD) : (V3 m ρ c main_arg11 : S64.Idx → EReal) = m ((c : Thread nD τ).loc main_arg11) := by
  dsimp only [V3, W3, hostOps1]; after_results; exact kept_arg11 m ρ c
theorem bneigh_item (c : Dev nD) : (V3 m ρ c main_arg13 : S64.Idx → EReal) = m ((c : Thread nD τ).loc main_arg13) := by
  dsimp only [V3, W3, hostOps1]; after_results; exact kept_arg13 m ρ c

/-! ## The first call's result outlives the rest of @main -/

theorem first_result_kept (c : Dev nD) :
    W4 m ρ c (Proc.devRef .tc main_v21) = (dat0 (V1 m ρ) c).arrAt 6 cfg0.N :=
  (W4_of_ne m ρ c main_v21 (by decide)).trans (Eq.trans (by
    show StableHlo.after hostOps1 (W2 m ρ c) (Proc.devRef .tc main_v21) = W2 m ρ c (Proc.devRef .tc main_v21)
    dsimp only [hostOps1]; after_results) (W2_arr m ρ c 6))

theorem second_result (c : Dev nD) :
    W4 m ρ c (Proc.devRef .tc main_v43) = (dat1 (V3 m ρ) c).arrAt 6 cfg1.N := W4_arr m ρ c 6

end Cert.KernelIdeal.HostRead

end
-- ==== Proof.RefLayer.lean ====
/-
  The reference's two results as `Sage.layer`.

  The reference computes, per side, the own embeddings by a gather, the neighbours' mean by a gather, a sum over the
  20 neighbours and a division by 20, transposes the two weight matrices, and then applies the layer: two
  `dot_general`s, the biases (each laid out as one row and repeated), `max` with zero, the sum of squares along
  each row, its square root, the clamp by `ε`, and the division. The gathers, the mean and the transposes are kept
  as they are; everything after them is read index by index and is `Sage.layer` of them.
-/
import proofs.«137083_j85813446574086_2_alg».proof.Proof.Gen.ReferenceIdeal.Read
import proofs.«137083_j85813446574086_2_alg».proof.Proof.SageRow

noncomputable section

namespace Cert.ReferenceIdeal.Layer

open Idealize.ShloMosaic Idealize.ShloMosaic.TcCoe Idealize.ShloMosaic.ValueIdx
open Cert.ReferenceIdeal Cert.ReferenceIdeal.Gen Cert.ReferenceIdeal.Read Cert.Sage

/-! ## The index maps of the layout steps, at an index written by coordinates -/

theorem lidx18 (p : Fin 100000) (q k : Fin 64) : lidx_main_v18 (ix2 p q) k = ix2 p k :=
  funext fun a => Fin.ext (by match a with | ⟨0, _⟩ => rfl | ⟨1, _⟩ => rfl)
theorem ridx18 (p : Fin 100000) (q k : Fin 64) : ridx_main_v18 (ix2 p q) k = ix2 k q :=
  funext fun a => Fin.ext (by match a with | ⟨0, _⟩ => rfl | ⟨1, _⟩ => rfl)
theorem lidx23 (p : Fin 100000) (q k : Fin 64) : lidx_main_v23 (ix2 p q) k = ix2 p k :=
  funext fun a => Fin.ext (by match a with | ⟨0, _⟩ => rfl | ⟨1, _⟩ => rfl)
theorem ridx23 (p : Fin 100000) (q k : Fin 64) : ridx_main_v23 (ix2 p q) k = ix2 k q :=
  funext fun a => Fin.ext (by match a with | ⟨0, _⟩ => rfl | ⟨1, _⟩ => rfl)
theorem idx20 (p : Fin 100000) (q : Fin 64) : idx_main_v19 (idx_main_v20 (ix2 p q)) = ix1 q :=
  funext fun a => Fin.ext (by match a with | ⟨0, _⟩ => rfl)
theorem idx26 (p : Fin 100000) (q : Fin 64) : idx_main_v25 (idx_main_v26 (ix2 p q)) = ix1 q :=
  funext fun a => Fin.ext (by match a with | ⟨0, _⟩ => rfl)

/-- The reference's rectified sum at row `p`, column `j`. -/
theorem v28_apply (x0 : (⟨S100000, .i32⟩ : BufTy).Contents (Elt Ideal)) (x2 : (⟨S100000x20, .i32⟩ : BufTy).Contents (Elt Ideal)) (x4 : (⟨S200000x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (p : Fin 100000) (j : Fin 64) :
    val_main_v28 (F := Ideal) x0 x2 x4 x6 x7 x8 x9 (ix2 p j)
      = Sage.hid (fun k => val_main_v6 (F := Ideal) x0 x4 (ix2 p k)) (fun k => val_main_v16 (F := Ideal) x2 x4 (ix2 p k))
          (fun k j => val_main_v17 (F := Ideal) x6 (ix2 k j)) (fun k j => val_main_v22 (F := Ideal) x8 (ix2 k j))
          (fun j => x7 (ix1 j)) (fun j => x9 (ix1 j)) j := by
  rw [val_main_v28_apply, val_main_v27_apply, val_main_v24_apply, val_main_v21_apply, val_main_v18_apply, val_main_v23_apply,
    val_main_v20_apply, val_main_v19_apply, val_main_v26_apply, val_main_v25_apply, val_main_call0_v0_apply, val_main_call0_cst_apply]
  simp only [lidx18, ridx18, lidx23, ridx23, idx20, idx26]
  rfl

theorem idxsq (p : Fin 100000) (q k : Fin 64) :
    idx_main_call1_v1 (idx_main_call1_v2 (idx_main_v32 (ix2 p q))) k = ix2 p k :=
  funext fun a => Fin.ext (by match a with | ⟨0, _⟩ => rfl | ⟨1, _⟩ => rfl)

/-- THE REFERENCE'S FIRST RESULT is the layer of its own gather, mean and transposes. -/
theorem v33_eq_layer (x0 : (⟨S100000, .i32⟩ : BufTy).Contents (Elt Ideal)) (x2 : (⟨S100000x20, .i32⟩ : BufTy).Contents (Elt Ideal)) (x4 : (⟨S200000x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v33 (F := Ideal) x0 x2 x4 x6 x7 x8 x9
      = Sage.layer (val_main_v6 (F := Ideal) x0 x4) (val_main_v16 (F := Ideal) x2 x4) (val_main_v17 (F := Ideal) x6)
          (val_main_v22 (F := Ideal) x8) x7 x9 := by
  funext i
  obtain ⟨p, q, rfl⟩ : ∃ (p : Fin 100000) (q : Fin 64), i = ix2 p q := ⟨i 0, i 1, eq_ix2 i⟩
  rw [Sage.layer_ix2]
  unfold Sage.layerAt Sage.row
  rw [val_main_v33_apply, val_main_v32_apply, val_main_v31_apply, val_main_v29_apply, val_main_call1_v2_apply,
    val_main_call1_v1_apply, val_main_v30_apply, val_main_cst_4_apply, val_main_call1_cst_apply]
  simp only [val_main_call1_v0_apply, idxsq, v28_apply, Ideal.hostDivf_def, Ideal.maximumf_def, Ideal.hostUnary_sqrt_def,
    Ideal.mulf_def, Ideal.ofBits_def, Ideal.ofBits_zero_f32, zero_add]

/-! ## The second side: the same steps on the item arrays -/

theorem lidx52 (p : Fin 100000) (q k : Fin 64) : lidx_main_v52 (ix2 p q) k = ix2 p k :=
  funext fun a => Fin.ext (by match a with | ⟨0, _⟩ => rfl | ⟨1, _⟩ => rfl)
theorem ridx52 (p : Fin 100000) (q k : Fin 64) : ridx_main_v52 (ix2 p q) k = ix2 k q :=
  funext fun a => Fin.ext (by match a with | ⟨0, _⟩ => rfl | ⟨1, _⟩ => rfl)
theorem lidx57 (p : Fin 100000) (q k : Fin 64) : lidx_main_v57 (ix2 p q) k = ix2 p k :=
  funext fun a => Fin.ext (by match a with | ⟨0, _⟩ => rfl | ⟨1, _⟩ => rfl)
theorem ridx57 (p : Fin 100000) (q k : Fin 64) : ridx_main_v57 (ix2 p q) k = ix2 k q :=
  funext fun a => Fin.ext (by match a with | ⟨0, _⟩ => rfl | ⟨1, _⟩ => rfl)
theorem idx54 (p : Fin 100000) (q : Fin 64) : idx_main_v53 (idx_main_v54 (ix2 p q)) = ix1 q :=
  funext fun a => Fin.ext (by match a with | ⟨0, _⟩ => rfl)
theorem idx60 (p : Fin 100000) (q : Fin 64) : idx_main_v59 (idx_main_v60 (ix2 p q)) = ix1 q :=
  funext fun a => Fin.ext (by match a with | ⟨0, _⟩ => rfl)

/-- The reference's rectified sum at row `p`, column `j`. -/
theorem v62_apply (x1 : (⟨S100000, .i32⟩ : BufTy).Contents (Elt Ideal)) (x3 : (⟨S100000x20, .i32⟩ : BufTy).Contents (Elt Ideal)) (x5 : (⟨S200000x64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (p : Fin 100000) (j : Fin 64) :
    val_main_v62 (F := Ideal) x1 x3 x5 x10 x11 x12 x13 (ix2 p j)
      = Sage.hid (fun k => val_main_v40 (F := Ideal) x1 x5 (ix2 p k)) (fun k => val_main_v50 (F := Ideal) x3 x5 (ix2 p k))
          (fun k j => val_main_v51 (F := Ideal) x10 (ix2 k j)) (fun k j => val_main_v56 (F := Ideal) x12 (ix2 k j))
          (fun j => x11 (ix1 j)) (fun j => x13 (ix1 j)) j := by
  rw [val_main_v62_apply, val_main_v61_apply, val_main_v58_apply, val_main_v55_apply, val_main_v52_apply, val_main_v57_apply,
    val_main_v54_apply, val_main_v53_apply, val_main_v60_apply, val_main_v59_apply, val_main_call2_v0_apply, val_main_call2_cst_apply]
  simp only [lidx52, ridx52, lidx57, ridx57, idx54, idx60]
  rfl

theorem idxsq' (p : Fin 100000) (q k : Fin 64) :
    idx_main_call3_v1 (idx_main_call3_v2 (idx_main_v66 (ix2 p q))) k = ix2 p k :=
  funext fun a => Fin.ext (by match a with | ⟨0, _⟩ => rfl | ⟨1, _⟩ => rfl)

/-- THE REFERENCE'S SECOND RESULT is the layer of its own gather, mean and transposes. -/
theorem v67_eq_layer (x1 : (⟨S100000, .i32⟩ : BufTy).Contents (Elt Ideal)) (x3 : (⟨S100000x20, .i32⟩ : BufTy).Contents (Elt Ideal)) (x5 : (⟨S200000x64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) :
    val_main_v67 (F := Ideal) x1 x3 x5 x10 x11 x12 x13
      = Sage.layer (val_main_v40 (F := Ideal) x1 x5) (val_main_v50 (F := Ideal) x3 x5) (val_main_v51 (F := Ideal) x10)
          (val_main_v56 (F := Ideal) x12) x11 x13 := by
  funext i
  obtain ⟨p, q, rfl⟩ : ∃ (p : Fin 100000) (q : Fin 64), i = ix2 p q := ⟨i 0, i 1, eq_ix2 i⟩
  rw [Sage.layer_ix2]
  unfold Sage.layerAt Sage.row
  rw [val_main_v67_apply, val_main_v66_apply, val_main_v65_apply, val_main_v63_apply, val_main_call3_v2_apply,
    val_main_call3_v1_apply, val_main_v64_apply, val_main_cst_11_apply, val_main_call3_cst_apply]
  simp only [val_main_call3_v0_apply, idxsq', v62_apply, Ideal.hostDivf_def, Ideal.maximumf_def, Ideal.hostUnary_sqrt_def,
    Ideal.mulf_def, Ideal.ofBits_def, Ideal.ofBits_zero_f32, zero_add]

end Cert.ReferenceIdeal.Layer

end
-- ==== Proof.Bridge.lean ====
/-
  The two programs end with the same results.

  On each side of the graph both programs apply one layer: the kernel in a pallas_call over 20 blocks of rows, the
  reference on whole arrays. The kernel's result arrays are `Sage.layer` of the operands its calls are entered
  with; those operands are the reference's own gather, mean and transposes of the launch memory; and the
  reference's results are `Sage.layer` of exactly those. No algebraic law is needed beyond reading both sides'
  sums over the same index sets in the same order, so the precondition is never opened.
-/
import proofs.«137083_j85813446574086_2_alg».proof.Proof.KernelRun
import proofs.«137083_j85813446574086_2_alg».proof.Proof.KernelArrays
import proofs.«137083_j85813446574086_2_alg».proof.Proof.KernelHost
import proofs.«137083_j85813446574086_2_alg».proof.Proof.RefLayer
import proofs.«137083_j85813446574086_2_alg».proof.Proof.Gen.ReferenceIdeal.Run
import proofs.«137083_j85813446574086_2_alg».proof.Defs
import proofs.«137083_j85813446574086_2_alg».proof.Proof.Gen.Kernel.Frame
import proofs.«137083_j85813446574086_2_alg».proof.Proof.Gen.Pre_finite_inputs

set_option maxRecDepth 16384

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The user side's result: the layer of the own and averaged user embeddings the launch memory determines. -/
def userOut (c : Dev nD) : Buf (Elt Ideal) ((c.tc : Thread nD τ).loc main_v21) :=
  Cert.Sage.layer
    (Cert.ReferenceIdeal.Read.val_main_v6 (F := Ideal) (m ((c.tc : Thread nD τ).loc main_arg0)) (m ((c.tc : Thread nD τ).loc main_arg4)))
    (Cert.ReferenceIdeal.Read.val_main_v16 (F := Ideal) (m ((c.tc : Thread nD τ).loc main_arg2)) (m ((c.tc : Thread nD τ).loc main_arg4)))
    (Cert.ReferenceIdeal.Read.val_main_v17 (F := Ideal) (m ((c.tc : Thread nD τ).loc main_arg6)))
    (Cert.ReferenceIdeal.Read.val_main_v22 (F := Ideal) (m ((c.tc : Thread nD τ).loc main_arg8)))
    (m ((c.tc : Thread nD τ).loc main_arg7)) (m ((c.tc : Thread nD τ).loc main_arg9))

/-- The item side's result. -/
def itemOut (c : Dev nD) : Buf (Elt Ideal) ((c.tc : Thread nD τ).loc main_v43) :=
  Cert.Sage.layer
    (Cert.ReferenceIdeal.Read.val_main_v40 (F := Ideal) (m ((c.tc : Thread nD τ).loc main_arg1)) (m ((c.tc : Thread nD τ).loc main_arg5)))
    (Cert.ReferenceIdeal.Read.val_main_v50 (F := Ideal) (m ((c.tc : Thread nD τ).loc main_arg3)) (m ((c.tc : Thread nD τ).loc main_arg5)))
    (Cert.ReferenceIdeal.Read.val_main_v51 (F := Ideal) (m ((c.tc : Thread nD τ).loc main_arg10)))
    (Cert.ReferenceIdeal.Read.val_main_v56 (F := Ideal) (m ((c.tc : Thread nD τ).loc main_arg12)))
    (m ((c.tc : Thread nD τ).loc main_arg11)) (m ((c.tc : Thread nD τ).loc main_arg13))

/-- The last boundary's contents at the first result. -/
theorem user_end (c : Dev nD) : W4 m ρ c (Proc.devRef .tc main_v21) = userOut m c := by
  refine (HostRead.first_result_kept m ρ c).trans ((Arrays.final0 (V1 m ρ) c).trans ?_)
  rw [HostRead.self_user, HostRead.neigh_user, HostRead.wself_user, HostRead.wneigh_user, HostRead.bself_user, HostRead.bneigh_user]
  rfl

/-- The last boundary's contents at the second result. -/
theorem item_end (c : Dev nD) : W4 m ρ c (Proc.devRef .tc main_v43) = itemOut m c := by
  refine (HostRead.second_result m ρ c).trans ((Arrays.final1 (V3 m ρ) c).trans ?_)
  rw [HostRead.self_item, HostRead.neigh_item, HostRead.wself_item, HostRead.wneigh_item, HostRead.bself_item, HostRead.bneigh_item]
  rfl

/-- THE KERNEL'S RUN, READ: both result arrays at the layer of the launch memory's embeddings, the arguments unchanged. -/
theorem run : θ_run defs (onTc (τ := τ) (main (F := Ideal))) ⟨m, fun _ => 0, ρ⟩ (fun r => ∀ c : Dev nD,
      r.2.mem ((c.tc : Thread nD τ).loc main_v21) = userOut m c
      ∧ r.2.mem ((c.tc : Thread nD τ).loc main_v43) = itemOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v21 (by decide))).trans (user_end m ρ c),
     (h c _ (mem_uc main_v43 (by decide))).trans (item_end m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c)⟩)
    (Ends.run_ends m ρ)

end Cert.KernelIdeal.Result

namespace Cert.Proof.Claims

open Idealize.ShloMosaic Idealize.ShloMosaic.TcCoe Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both runs end with the layer of the same embeddings on each side. -/
theorem algebraic : Cert.algebraic_KernelIdeal_ReferenceIdeal := by
  intro m ρ m' ρ' _ hagree
  refine ⟨fun c => Cert.KernelIdeal.Result.userOut m c, fun c => Cert.KernelIdeal.Result.itemOut m c,
    Cert.KernelIdeal.Result.run m ρ, ?_⟩
  refine (θ_run Cert.ReferenceIdeal.defs _ _).mono (fun _ h c => ?_) (Cert.ReferenceIdeal.Value.run (F := Ideal) m' ρ')
  obtain ⟨h33, h67, hargs⟩ := h c
  obtain ⟨a0, a1, a2, a3, a4, a5, a6, a7, a8, a9, a10, a11, a12, a13⟩ := hagree c
  refine ⟨h33.trans ?_, h67.trans ?_, hargs⟩
  · rw [Cert.ReferenceIdeal.Read.val_main_v33_eq, Cert.ReferenceIdeal.Layer.v33_eq_layer, a0, a2, a4, a6, a7, a8, a9]
    rfl
  · rw [Cert.ReferenceIdeal.Read.val_main_v67_eq, Cert.ReferenceIdeal.Layer.v67_eq_layer, a1, a3, a5, a10, a11, a12, a13]
    rfl

end Cert.Proof.Claims

end
-- ==== Proof.lean ====
/-
  The proof of `Cert.Claim`: a GraphSAGE layer with the mean aggregator on the two sides (users, items) of a
  bipartite graph, as two Pallas calls against its jnp reference, equal on the extended reals.

  Per side, for each of 100000 nodes: the node's own embedding `s` and the mean `n` of its 20 neighbours'
  embeddings are gathered from a [200000, 64] table; the layer is
      h   = max (s · Wsᵀ + bs + n · Wnᵀ + bn) 0,        out = h / max ‖h‖₂ ε.
  Both programs gather, average and transpose on the host in the same way; the kernel then rounds the embeddings
  to bf16 (the identity on the extended reals) and computes the layer block by block (20 blocks of 5000 rows),
  where the reference computes it on whole arrays. The modules:
    Proof/SageRow.lean      the layer for one row as a function on the extended reals, and for a whole array;
    Proof/LibColumn.lean    a vector kept as a column and repeated along rows, read at coordinates;
    Proof/SageBlock.lean    the kernel body's arithmetic on one block, row by row;
    Proof/KernelArrays.lean each call's result array from its blocks (the blocks tile the array);
    Proof/KernelHost.lean   the operands each call is entered with, as functions of the launch memory;
    Proof/KernelRun.lean    the kernel's run with every buffer's final contents;
    Proof/RefLayer.lean     the reference's results as the same function of its gathers, means and transposes;
    Proof/Bridge.lean       the two runs side by side, and the claims.
  The idealization rewrote nothing, so `preserves` is `True`. The equality needs no law of arithmetic: both
  sides' sums run over the same index sets and are associated the same way, so finiteness of the inputs is not used.
-/
import proofs.«137083_j85813446574086_2_alg».proof.Defs
import proofs.«137083_j85813446574086_2_alg».proof.Proof.Gen.Kernel
import proofs.«137083_j85813446574086_2_alg».proof.Proof.Gen.Kernel.Frame
import proofs.«137083_j85813446574086_2_alg».proof.Proof.Gen.KernelIdeal
import proofs.«137083_j85813446574086_2_alg».proof.Proof.Gen.KernelIdeal.Frame
import proofs.«137083_j85813446574086_2_alg».proof.Proof.Gen.ReferenceIdeal
import proofs.«137083_j85813446574086_2_alg».proof.Proof.Gen.ReferenceIdeal.Run
import proofs.«137083_j85813446574086_2_alg».proof.Proof.Gen.ReferenceIdeal.Read
import proofs.«137083_j85813446574086_2_alg».proof.Proof.Gen.Pre_finite_inputs
import proofs.«137083_j85813446574086_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_ideal, Claims.frame_reference, trivial, Claims.algebraic⟩

end Cert.Proof

end
